-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S256x4096 : Shape := ⟨2, ![256, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_

variable [Facts]

def fn {F : FTy → Type} [FloatOps F] (main_arg0 : FVec F S16384x4096 .f32) (main_arg1 : FVec F S256x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  main_v8
-- ==== Kernel.lean ====
abbrev S16384x4096 : Shape := ⟨2, ![16384, 4096]⟩
abbrev S256x4096 : Shape := ⟨2, ![256, 4096]⟩
abbrev S16384x256 : Shape := ⟨2, ![16384, 256]⟩
abbrev S1024x2048 : Shape := ⟨2, ![1024, 2048]⟩
abbrev S256x2048 : Shape := ⟨2, ![256, 2048]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S256x4096, .f32⟩
  | .hbm, ⟨2, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S256x2048, .f32⟩
  | .local _ .vmem, ⟨3, _⟩ => ⟨S256x2048, .f32⟩
  | .local _ .vmem, ⟨4, _⟩ => ⟨S1024x256, .f32⟩
  | .local _ .vmem, ⟨5, _⟩ => ⟨S1024x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x2048_S1024x2048_0_0 : ∀ a, (![0, 0] : Fin 2 → Nat) a + S1024x2048.size a ≤ S1024x2048.size a
  h_S1024x2048 : 0 < S1024x2048.numel
  inb_S256x2048_S256x2048_0_0 : ∀ a, (![0, 0] : Fin 2 → Nat) a + S256x2048.size a ≤ S256x2048.size a
  h_S256x2048 : 0 < S256x2048.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x4096.size a
  hwx0_0 : ∀ i : grid0.Coords, EltTy.bits .f32 = 32 ∨ (Rect.block (s := S16384x4096) S1024x2048.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x4096.size a
  hwx0_1 : ∀ i : grid0.Coords, EltTy.bits .f32 = 32 ∨ (Rect.block (s := S256x4096) S256x2048.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x4096.size a
  hwx0_2 : ∀ i : grid0.Coords, EltTy.bits .f32 = 32 ∨ (Rect.block (s := S256x4096) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2048.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S256x4096 : Shape := ⟨2, ![256, 4096]⟩
abbrev S4096x256 : Shape := ⟨2, ![4096, 256]⟩
abbrev S16384x256 : Shape := ⟨2, ![16384, 256]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S256x4096, .f32⟩
  | .hbm, ⟨2, _⟩ => ⟨S4096x256, .f32⟩
  | .hbm, ⟨3, _⟩ => ⟨S16384x256, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S256x4096_S4096x256_1_0 : S256x4096.Transposes [1, 0] S4096x256
  dot_S16384x4096_S4096x256_S16384x256_1_0_0_1_n_n_wf : DotDims.WF S16384x4096 S4096x256 S16384x256 [1] [0] [0] [1] [] []

variable [Facts₀]

def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf

class Facts : Prop extends Facts₀ where

variable [Facts]
-- ==== Proof.BitsData.lean ====
/-
  The two-pass product, as the pipeline sees it. The grid is 16 row tiles by 2 column halves, the half innermost:
  point t works on row tile t / 2 and column half t % 2. Window 0 is the (row tile, half) block of the activations,
  windows 1 and 2 are the first and the second column half of ONE weight array, window 3 the row tile of the result.
  At an even point the body stores the product of the activations' block with the first half of the weights into the
  result's block; at the odd point after it the body adds the product with the second half to what it finds there, and
  the block is written back. This module names the blocks, the accumulated block after each point, the proof data of
  the pipeline (what every staging buffer holds after the body at each point), and what each staging buffer holds
  when the body is entered.
-/
import proofs.«132035_g2731599200767_cont_9to1_1386_8_alg».proof.Proof.Gen.Kernel.Launch
import proofs.«132035_g2731599200767_cont_9to1_1386_8_alg».proof.Proof.Gen.Kernel.Skeleton
import proofs.«132035_g2731599200767_cont_9to1_1386_8_alg».proof.Proof.Gen.Kernel.Points
import Idealize.ShloMosaic.Lib.Pipeline.FrameBody
import Idealize.ShloMosaic.Lib.Tactic

set_option maxRecDepth 16384

noncomputable section

namespace Cert.Kernel.TwoPass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers when the region is entered: as launched (the program is the region alone). -/
abbrev V (c : Dev nD) (b : Ref sig .tc) : Buf (Elt F) ((c : Thread nD τ).loc b) := m ((c : Thread nD τ).loc b)

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The result's block after the body at position `n`: at an even position the product of the activations' block with
    the first half of the weights; at an odd one that of the position before plus the product with the second half. -/
def acc (c : Dev nD) : (n : ℕ) → n < cfg0.N → Vec F S1024x256 .f32
  | 0, hn => k0_pay1 (blk m c 0 ⟨0, hn⟩) (blk m c 1 ⟨0, hn⟩)
  | n + 1, hn =>
    if (n + 1) % 2 = 0 then k0_pay1 (blk m c 0 ⟨n + 1, hn⟩) (blk m c 1 ⟨n + 1, hn⟩)
    else k0_pay2 (acc c n (Nat.lt_of_succ_lt hn)) (blk m c 0 ⟨n + 1, hn⟩) (blk m c 2 ⟨n + 1, hn⟩)

/-- At an even point the accumulated block is the first pass alone. -/
theorem acc_even (c : Dev nD) (t : Fin cfg0.N) (h : t.val % 2 = 0) :
    acc m c t.val t.isLt = k0_pay1 (blk m c 0 t) (blk m c 1 t) := by
  obtain ⟨n, hn⟩ := t
  cases n with
  | zero => rfl
  | succ n => exact (if_pos h).trans rfl

/-- At an odd point it is the block of the point before plus the second pass. -/
theorem acc_odd (c : Dev nD) (t : Fin cfg0.N) (h : ¬t.val % 2 = 0) :
    acc m c t.val t.isLt
      = k0_pay2 (acc m c (t.val - 1) (Nat.lt_of_le_of_lt (Nat.sub_le _ _) t.isLt)) (blk m c 0 t) (blk m c 2 t) := by
  obtain ⟨n, hn⟩ := t
  cases n with
  | zero => exact absurd (Nat.zero_mod _) h
  | succ n => exact (if_neg h).trans rfl

/-- The pipeline's proof data on core `c`: the arrays as launched; after the body each input's staging buffer still at
    its block and the result's at the accumulated block; nothing carried beside them; nothing owed. The two windows
    on the weight array hold one half of its share each, the activations' window the full share. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => acc m c t.val t.isLt
  Φ _ := iprop(emp)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = acc m c t.val t.isLt := by dsimp only [dats]

/-- An input's staging buffer holds the window's block at every point, fetched there or not: where it is not fetched
    the block index has not moved and the body left the block in place. -/
theorem before_0 (c : Dev nD) (t : Fin cfg0.N) (d) : (dats m 0 c).before 0 t d = blk m c 0 t :=
  ((dats m 0 c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dats m 0 c).before 1 t d = blk m c 1 t :=
  ((dats m 0 c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dats m 0 c).before 2 t d = blk m c 2 t :=
  ((dats m 0 c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-- The result's window is live at every point of the grid: the column half is 0 or 1, and the body stores at both. -/
theorem live_3 : ∀ i : grid0.Coords, cfg0.idle 3 i = false := by decide +kernel
/-- The same, with the configuration's field unfolded. -/
theorem idle_3 : ∀ i : grid0.Coords, idle0 3 i = false := by decide +kernel

/-- At an odd point the result's staging buffer holds what the body left at the even point before: the block was not
    written back in between (it is written back after odd points only). -/
theorem before_3_odd (c : Dev nD) (t : Fin cfg0.N) (h : ¬t.val % 2 = 0) (d) :
    (dats m 0 c).before 3 t d = acc m c (t.val - 1) (Nat.lt_of_le_of_lt (Nat.sub_le _ _) t.isLt) := by
  have hN : t.val < 32 := lt_of_lt_of_eq t.isLt (show cfg0.N = 32 from N_0)
  rw [Dat.before_out_kept _ 3 rfl t (by omega)
    (Bool.eq_false_iff.mpr fun hf => by have := (flush0_3 _).mp hf; dsimp only at this; omega)
    live_3 (fun _ _ => rfl)]
  dsimp only [dats]

end Cert.Kernel.TwoPass

end
-- ==== Proof.BitsBody.lean ====
/-
  The body at every grid point. The column half of a point decides the body's two conditionals: at an even point
  the first is taken and the second is not, at an odd point the other way round. At an even point the body stores
  the product of the activations' block with the first half of the weights into the result's block (whatever it held);
  at an odd point it loads the block, adds the product with the second half, and stores the sum back. Either way the
  three inputs' staging buffers are only read. From these two runs: the pipeline's body obligation.
-/
import proofs.«132035_g2731599200767_cont_9to1_1386_8_alg».proof.Proof.BitsData
import Idealize.ShloMosaic.Lib.Pipeline.Value

set_option maxRecDepth 16384

noncomputable section

namespace Cert.Kernel.TwoPass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first conditional (`column half = 0`) holds at the even points, -/
theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)
/-- the second (`column half = 1`) at the odd ones. -/
theorem cond2_iff : ∀ t : Fin cfg0.N, k0_cond2 (grid0.coords t) = 1#1 ↔ t.val % 2 = 1 :=
  (by decide +kernel : ∀ t : Fin grid0.N, k0_cond2 (grid0.coords t) = 1#1 ↔ t.val % 2 = 1)

/-- The zero offsets of a whole-block access, however spelt. -/
theorem zero_off : (![0, 0] : Fin 2 → ℕ) = fun _ => 0 := by
  funext a; fin_cases a <;> rfl

set_option maxHeartbeats 1000000 in
/-- The body where only the first conditional is taken: the inputs' buffers are left as found, and the result's
    buffer, whatever it held, ends at the product of the activations' block with the first half of the weights. -/
theorem run_even (c : Dev nD) (i : grid0.Coords)
    (a2 : Memref sig .tc .vmem S1024x2048 .f32) (h2 : a2.IsWhole) (a3 : Memref sig .tc .vmem S256x2048 .f32) (h3 : a3.IsWhole)
    (a4 : Memref sig .tc .vmem S256x2048 .f32) (h4 : a4.IsWhole) (a5 : Memref sig .tc .vmem S1024x256 .f32) (h5 : a5.IsWhole)
    (hc1 : k0_cond1 i = 1#1) (hc2 : ¬k0_cond2 i = 1#1)
    (x : Vec F S1024x2048 .f32) (w0 w1 : Vec F S256x2048 .f32) (E : Set ℕ) (K : PUnit → sProp 𝕄) :
    iprop(owns (c : Thread nD τ) a2 fullShare x ∗ owns (c : Thread nD τ) a3 fullShare w0 ∗ owns (c : Thread nD τ) a4 fullShare w1
        ∗ (∃ d, owns (c : Thread nD τ) a5 fullShare d)
        ∗ (iprop(owns (c : Thread nD τ) a2 fullShare x ∗ owns (c : Thread nD τ) a3 fullShare w0 ∗ owns (c : Thread nD τ) a4 fullShare w1
            ∗ owns (c : Thread nD τ) a5 fullShare (k0_pay1 x w0)) -∗ K ⟨⟩))
      ⊢ wp frame (wpE (defs₀ (F := F)) Variants.none c none) E (cc0__matmul_block i a2 h2 a3 h3 a4 h4 a5 h5) K := by
  simp only [cc0__matmul_block_eq_skeleton]; unfold cc0__matmul_block_skel
  unfold owns
  iintro ⟨⟨%f2, %hf2, H2⟩, ⟨%f3, %hf3, H3⟩, ⟨%f4, %hf4, H4⟩, ⟨%d, %f5, -, H5⟩, Hk⟩
  obtain rfl := h2.eq_unread hf2
  obtain rfl := h3.eq_unread hf3
  obtain rfl := h4.eq_unread hf4
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => ⟨_, List.mem_singleton_self _, View.mem_set_unit_zero zero_off inb_S1024x256_S1024x256_0_0 y⟩),
    View.canon_unit_zero zero_off]
  simp only [View.readAt_eq_ld, hf2, hf3, View.ld_unit_zero (S := S1024x2048) zero_off, View.ld_unit_zero (S := S256x2048) zero_off]

set_option maxHeartbeats 1000000 in
/-- The body where only the second conditional is taken: the inputs' buffers are left as found, and the result's
    buffer, holding `y`, ends at `y` plus the product of the activations' block with the second half of the weights. -/
theorem run_odd (c : Dev nD) (i : grid0.Coords)
    (a2 : Memref sig .tc .vmem S1024x2048 .f32) (h2 : a2.IsWhole) (a3 : Memref sig .tc .vmem S256x2048 .f32) (h3 : a3.IsWhole)
    (a4 : Memref sig .tc .vmem S256x2048 .f32) (h4 : a4.IsWhole) (a5 : Memref sig .tc .vmem S1024x256 .f32) (h5 : a5.IsWhole)
    (hc1 : ¬k0_cond1 i = 1#1) (hc2 : k0_cond2 i = 1#1)
    (x : Vec F S1024x2048 .f32) (w0 w1 : Vec F S256x2048 .f32) (y : Vec F S1024x256 .f32) (E : Set ℕ) (K : PUnit → sProp 𝕄) :
    iprop(owns (c : Thread nD τ) a2 fullShare x ∗ owns (c : Thread nD τ) a3 fullShare w0 ∗ owns (c : Thread nD τ) a4 fullShare w1
        ∗ owns (c : Thread nD τ) a5 fullShare y
        ∗ (iprop(owns (c : Thread nD τ) a2 fullShare x ∗ owns (c : Thread nD τ) a3 fullShare w0 ∗ owns (c : Thread nD τ) a4 fullShare w1
            ∗ owns (c : Thread nD τ) a5 fullShare (k0_pay2 y x w1)) -∗ K ⟨⟩))
      ⊢ wp frame (wpE (defs₀ (F := F)) Variants.none c none) E (cc0__matmul_block i a2 h2 a3 h3 a4 h4 a5 h5) K := by
  simp only [cc0__matmul_block_eq_skeleton]; unfold cc0__matmul_block_skel
  unfold owns
  iintro ⟨⟨%f2, %hf2, H2⟩, ⟨%f3, %hf3, H3⟩, ⟨%f4, %hf4, H4⟩, ⟨%f5, %hf5, H5⟩, Hk⟩
  obtain rfl := h2.eq_unread hf2
  obtain rfl := h3.eq_unread hf3
  obtain rfl := h4.eq_unread hf4
  obtain rfl := h5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => ⟨_, List.mem_singleton_self _, View.mem_set_unit_zero zero_off inb_S1024x256_S1024x256_0_0 y⟩),
    View.canon_unit_zero zero_off]
  simp only [View.readAt_eq_ld, hf2, hf4, hf5, View.ld_unit_zero (S := S1024x2048) zero_off, View.ld_unit_zero (S := S256x2048) zero_off,
    View.ld_unit_zero (S := S1024x256) zero_off]

/-! ## The body obligation -/

/-- Each window's current staging buffer at point `t`, spelt as the pipeline passes it. -/
abbrev ms_0 (t : Fin cfg0.N) : Memref sig .tc .vmem S1024x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x2048 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S256x2048 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x256 .f32 := win0_3.stage (cfg0.slots t 3)
abbrev hs_3 (t : Fin cfg0.N) : (ms_3 t).IsWhole := hstage0_3 ((cfg0.slots t 3).cast nbuf0_3)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t))

set_option maxHeartbeats 800000 in
/-- The body at any point: the inputs' buffers hold their blocks; by the parity of the point one of the two runs
    applies — at an odd point the result's buffer holds what the even point before left —; nothing else is touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 32 := lt_of_lt_of_eq t.isLt (show cfg0.N = 32 from N_0)
  by_cases h0 : t.val % 2 = 0
  · rw [acc_even m c t h0]
    iintro ⟨HΦ, Ho, ⟨%d0, H0⟩, ⟨%d1, H1⟩, ⟨%d2, H2⟩, ⟨%d3, H3⟩⟩
    iapply (run_even c (grid0.coords t) _ _ _ _ _ _ _ _ ((cond1_iff t).mpr h0) (fun h => by have := (cond2_iff t).mp h; omega)
      (blk m c 0 t) (blk m c 1 t) (blk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc_odd m c t h0]
    simp only [before_3_odd m c t h0]
    iintro ⟨HΦ, Ho, ⟨%d0, H0⟩, ⟨%d1, H1⟩, ⟨%d2, H2⟩, ⟨%d3, H3⟩⟩
    iapply (run_odd c (grid0.coords t) _ _ _ _ _ _ _ _ (fun h => h0 ((cond1_iff t).mp h)) ((cond2_iff t).mpr (by omega))
      (blk m c 0 t) (blk m c 1 t) (blk m c 2 t) _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  have h3 : cfg0.idle (3 : Fin 4) (cfg0.grid.coords t) = false := live_3 _
  rw [h3]
  exact sound_body m c t

end Cert.Kernel.TwoPass

end
-- ==== Proof.BitsRun.lean ====
/-
  The run of the whole program. The region is entered with the three arrays as launched. The weight array is behind
  two windows (its two column halves), so the launch hands each of them one half of the array's share — both only read
  it —, the activations' window the full share of its array and the result's window its array outright. With the body
  obligation this gives: every weakly fair execution terminates, and each window's array ends at what the pipeline's
  write-backs make of it; an input's array is never written, which is the frame.
-/
import proofs.«132035_g2731599200767_cont_9to1_1386_8_alg».proof.Proof.BitsBody
import Idealize.ShloMosaic.Lib.Pipeline.Frame

set_option maxRecDepth 16384

noncomputable section

namespace Cert.Kernel.TwoPass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The pipeline library's algebra is the proof's whole user algebra. -/
abbrev EP : Emb (UR sig nD τ) 𝕄 := emb₁

/-- The launch element of the pipeline's staging cells. -/
def u₀ : UR sig nD τ := initOf (Pipeline.cells cfgs cellOf_inj) (Pipeline.launchToks cfgs cellOf_inj)

/-- A window's array is a whole buffer: all of its elements. -/
theorem arr_all (c : Dev nD) (w : Fin 4) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = ((cfg0.win w).arr.view.loc (c.tc : Thread nD τ) ↦{q} f) := by
  rw [(arr_whole0 w).set_eq_univ]

/-- The shares the windows hold their arrays at, and the arrays' contents at entry. -/
theorem share_0 (c : Dev nD) : (dats m 0 c).share 0 = fullShare := by
  unfold Dat.share; rw [if_neg (by decide)]; dsimp only [dats]
theorem share_1 (c : Dev nD) : (dats m 0 c).share 1 = fullShare.left := by
  unfold Dat.share; rw [if_neg (by decide)]; dsimp only [dats]
theorem share_2 (c : Dev nD) : (dats m 0 c).share 2 = fullShare.right := by
  unfold Dat.share; rw [if_neg (by decide)]; dsimp only [dats]
theorem share_3 (c : Dev nD) : (dats m 0 c).share 3 = fullShare := by
  unfold Dat.share; rw [if_pos (by decide)]
theorem arrAt_zero (c : Dev nD) (w : Fin cfg0.W) : (dats m 0 c).arrAt w 0 = V m c (Pipeline.arrRef spec0 w) := A_eq m c w

/-- The three buffers behind the four windows, each whole at the full share, are the windows' arrays at their shares:
    the weight array's full share is the two halves its two windows hold. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_v0] (by decide) (by decide), bigSep_W0]
  simp only [arr_all, share_0, share_1, share_2, share_3, arrAt_zero, View.set_whole]
  show (iprop(((c.tc : Thread nD τ).loc main_arg0 ↦{fullShare} V m c main_arg0) ∗ ((c.tc : Thread nD τ).loc main_arg1 ↦{fullShare} V m c main_arg1)
    ∗ ((c.tc : Thread nD τ).loc main_v0 ↦{fullShare} V m c main_v0)) : sProp 𝕄) ⊢ _
  iintro ⟨H0, H1, H3⟩
  ihave H12 := (pointsTo_share (PosShare.mem_left_op_right fullShare)).1 $$ H1
  icases H12 with ⟨H1, H2⟩
  isplitl [H0]; · iexact H0
  isplitl [H1]; · iexact H1
  isplitl [H2]; · iexact H2
  iexact H3

/-- Every weakly fair execution of @main terminates, and every window's array ends at what the write-backs make of it. -/
theorem run_main : θ_run defs (onTc (τ := τ) (main (F := F))) ⟨m, fun _ => 0, ρ⟩ (fun r => ∀ (c : Dev nD) (w : Fin cfg0.W),
    r.2.mem ((cfg0.win w).arr.view.loc (c.tc : Thread nD τ)) = (dats m 0 c).arrAt w cfg0.N) :=
  Pipeline.θ_run_region_noSem_shared cfgs (dats m) () cellOf_inj (0 : Fin 1) winFacts₀0 EP defs₀ Variants.none m ρ main
    (hbody := fun c => (body_obligation m c).loose) (hne := block_pos0) (harr := arr_whole0) (hstage := stage_whole0)
    (howed := fun _ _ => rfl) (u₀ := u₀) (hu₀ := BI.Entails.refl _)
    (V := V m) (hmain := hmain m Variants.none) (hsplit := arrays_split m)
    (X := fun _ => iprop(emp)) (Y := fun _ => iprop(emp)) (Z := fun _ => iprop(emp))
    (hX := fun c => by rw [unscopedRest0_eq]; iintro -; isplitr <;> iempintro)
    (hin := fun c => by
      rw [scopedRest0_eq, show (dats m 0 c).Φ 0 = (BI.emp : sProp 𝕄) from rfl]
      iintro -; iempintro)
    (hout := fun c => by
      rw [scopedRest0_eq, show (dats m 0 c).Φ (Fin.last cfg0.N) = (BI.emp : sProp 𝕄) from rfl]
      iintro -; isplitr <;> iempintro)
    (QY := fun _ _ => True)
    (hY := fun c s' => by
      iintro ⟨-, -, HSI⟩; imodintro
      isplitr; · ipureintro; trivial
      iexact HSI)
    (hQ := fun _ h c w => (h c).1 w)

/-- THE FRAME: the two argument arrays end as launched — they are behind input windows only, and an input's array is
    never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans ((dats m 0 c).arrAt_in 0 rfl _), (h c 1).trans ((dats m 0 c).arrAt_in 1 rfl _)⟩)
    (run_main m ρ)

end Cert.Kernel.TwoPass

end
-- ==== Proof.IdealData.lean ====
/-
  The two-pass product, as the pipeline sees it. The grid is 16 row tiles by 2 column halves, the half innermost:
  point t works on row tile t / 2 and column half t % 2. Window 0 is the (row tile, half) block of the activations,
  windows 1 and 2 are the first and the second column half of ONE weight array, window 3 the row tile of the result.
  At an even point the body stores the product of the activations' block with the first half of the weights into the
  result's block; at the odd point after it the body adds the product with the second half to what it finds there, and
  the block is written back. This module names the blocks, the accumulated block after each point, the proof data of
  the pipeline (what every staging buffer holds after the body at each point), and what each staging buffer holds
  when the body is entered.
-/
import proofs.«132035_g2731599200767_cont_9to1_1386_8_alg».proof.Proof.Gen.KernelIdeal.Launch
import proofs.«132035_g2731599200767_cont_9to1_1386_8_alg».proof.Proof.Gen.KernelIdeal.Skeleton
import proofs.«132035_g2731599200767_cont_9to1_1386_8_alg».proof.Proof.Gen.KernelIdeal.Points
import Idealize.ShloMosaic.Lib.Pipeline.FrameBody
import Idealize.ShloMosaic.Lib.Tactic

set_option maxRecDepth 16384

noncomputable section

namespace Cert.KernelIdeal.TwoPass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers when the region is entered: as launched (the program is the region alone). -/
abbrev V (c : Dev nD) (b : Ref sig .tc) : Buf (Elt F) ((c : Thread nD τ).loc b) := m ((c : Thread nD τ).loc b)

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The result's block after the body at position `n`: at an even position the product of the activations' block with
    the first half of the weights; at an odd one that of the position before plus the product with the second half. -/
def acc (c : Dev nD) : (n : ℕ) → n < cfg0.N → Vec F S1024x256 .f32
  | 0, hn => k0_pay1 (blk m c 0 ⟨0, hn⟩) (blk m c 1 ⟨0, hn⟩)
  | n + 1, hn =>
    if (n + 1) % 2 = 0 then k0_pay1 (blk m c 0 ⟨n + 1, hn⟩) (blk m c 1 ⟨n + 1, hn⟩)
    else k0_pay2 (acc c n (Nat.lt_of_succ_lt hn)) (blk m c 0 ⟨n + 1, hn⟩) (blk m c 2 ⟨n + 1, hn⟩)

/-- At an even point the accumulated block is the first pass alone. -/
theorem acc_even (c : Dev nD) (t : Fin cfg0.N) (h : t.val % 2 = 0) :
    acc m c t.val t.isLt = k0_pay1 (blk m c 0 t) (blk m c 1 t) := by
  obtain ⟨n, hn⟩ := t
  cases n with
  | zero => rfl
  | succ n => exact (if_pos h).trans rfl

/-- At an odd point it is the block of the point before plus the second pass. -/
theorem acc_odd (c : Dev nD) (t : Fin cfg0.N) (h : ¬t.val % 2 = 0) :
    acc m c t.val t.isLt
      = k0_pay2 (acc m c (t.val - 1) (Nat.lt_of_le_of_lt (Nat.sub_le _ _) t.isLt)) (blk m c 0 t) (blk m c 2 t) := by
  obtain ⟨n, hn⟩ := t
  cases n with
  | zero => exact absurd (Nat.zero_mod _) h
  | succ n => exact (if_neg h).trans rfl

/-- The pipeline's proof data on core `c`: the arrays as launched; after the body each input's staging buffer still at
    its block and the result's at the accumulated block; nothing carried beside them; nothing owed. The two windows
    on the weight array hold one half of its share each, the activations' window the full share. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => acc m c t.val t.isLt
  Φ _ := iprop(emp)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = acc m c t.val t.isLt := by dsimp only [dats]

/-- An input's staging buffer holds the window's block at every point, fetched there or not: where it is not fetched
    the block index has not moved and the body left the block in place. -/
theorem before_0 (c : Dev nD) (t : Fin cfg0.N) (d) : (dats m 0 c).before 0 t d = blk m c 0 t :=
  ((dats m 0 c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dats m 0 c).before 1 t d = blk m c 1 t :=
  ((dats m 0 c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dats m 0 c).before 2 t d = blk m c 2 t :=
  ((dats m 0 c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)

/-- The result's window is live at every point of the grid: the column half is 0 or 1, and the body stores at both. -/
theorem live_3 : ∀ i : grid0.Coords, cfg0.idle 3 i = false := by decide +kernel
/-- The same, with the configuration's field unfolded. -/
theorem idle_3 : ∀ i : grid0.Coords, idle0 3 i = false := by decide +kernel

/-- At an odd point the result's staging buffer holds what the body left at the even point before: the block was not
    written back in between (it is written back after odd points only). -/
theorem before_3_odd (c : Dev nD) (t : Fin cfg0.N) (h : ¬t.val % 2 = 0) (d) :
    (dats m 0 c).before 3 t d = acc m c (t.val - 1) (Nat.lt_of_le_of_lt (Nat.sub_le _ _) t.isLt) := by
  have hN : t.val < 32 := lt_of_lt_of_eq t.isLt (show cfg0.N = 32 from N_0)
  rw [Dat.before_out_kept _ 3 rfl t (by omega)
    (Bool.eq_false_iff.mpr fun hf => by have := (flush0_3 _).mp hf; dsimp only at this; omega)
    live_3 (fun _ _ => rfl)]
  dsimp only [dats]

end Cert.KernelIdeal.TwoPass

end
-- ==== Proof.IdealBody.lean ====
/-
  The body at every grid point. The column half of a point decides the body's two conditionals: at an even point
  the first is taken and the second is not, at an odd point the other way round. At an even point the body stores
  the product of the activations' block with the first half of the weights into the result's block (whatever it held);
  at an odd point it loads the block, adds the product with the second half, and stores the sum back. Either way the
  three inputs' staging buffers are only read. From these two runs: the pipeline's body obligation.
-/
import proofs.«132035_g2731599200767_cont_9to1_1386_8_alg».proof.Proof.IdealData
import Idealize.ShloMosaic.Lib.Pipeline.Value

set_option maxRecDepth 16384

noncomputable section

namespace Cert.KernelIdeal.TwoPass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The first conditional (`column half = 0`) holds at the even points, -/
theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)
/-- the second (`column half = 1`) at the odd ones. -/
theorem cond2_iff : ∀ t : Fin cfg0.N, k0_cond2 (grid0.coords t) = 1#1 ↔ t.val % 2 = 1 :=
  (by decide +kernel : ∀ t : Fin grid0.N, k0_cond2 (grid0.coords t) = 1#1 ↔ t.val % 2 = 1)

/-- The zero offsets of a whole-block access, however spelt. -/
theorem zero_off : (![0, 0] : Fin 2 → ℕ) = fun _ => 0 := by
  funext a; fin_cases a <;> rfl

set_option maxHeartbeats 1000000 in
/-- The body where only the first conditional is taken: the inputs' buffers are left as found, and the result's
    buffer, whatever it held, ends at the product of the activations' block with the first half of the weights. -/
theorem run_even (c : Dev nD) (i : grid0.Coords)
    (a2 : Memref sig .tc .vmem S1024x2048 .f32) (h2 : a2.IsWhole) (a3 : Memref sig .tc .vmem S256x2048 .f32) (h3 : a3.IsWhole)
    (a4 : Memref sig .tc .vmem S256x2048 .f32) (h4 : a4.IsWhole) (a5 : Memref sig .tc .vmem S1024x256 .f32) (h5 : a5.IsWhole)
    (hc1 : k0_cond1 i = 1#1) (hc2 : ¬k0_cond2 i = 1#1)
    (x : Vec F S1024x2048 .f32) (w0 w1 : Vec F S256x2048 .f32) (E : Set ℕ) (K : PUnit → sProp 𝕄) :
    iprop(owns (c : Thread nD τ) a2 fullShare x ∗ owns (c : Thread nD τ) a3 fullShare w0 ∗ owns (c : Thread nD τ) a4 fullShare w1
        ∗ (∃ d, owns (c : Thread nD τ) a5 fullShare d)
        ∗ (iprop(owns (c : Thread nD τ) a2 fullShare x ∗ owns (c : Thread nD τ) a3 fullShare w0 ∗ owns (c : Thread nD τ) a4 fullShare w1
            ∗ owns (c : Thread nD τ) a5 fullShare (k0_pay1 x w0)) -∗ K ⟨⟩))
      ⊢ wp frame (wpE (defs₀ (F := F)) Variants.none c none) E (cc0__matmul_block i a2 h2 a3 h3 a4 h4 a5 h5) K := by
  simp only [cc0__matmul_block_eq_skeleton]; unfold cc0__matmul_block_skel
  unfold owns
  iintro ⟨⟨%f2, %hf2, H2⟩, ⟨%f3, %hf3, H3⟩, ⟨%f4, %hf4, H4⟩, ⟨%d, %f5, -, H5⟩, Hk⟩
  obtain rfl := h2.eq_unread hf2
  obtain rfl := h3.eq_unread hf3
  obtain rfl := h4.eq_unread hf4
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => ⟨_, List.mem_singleton_self _, View.mem_set_unit_zero zero_off inb_S1024x256_S1024x256_0_0 y⟩),
    View.canon_unit_zero zero_off]
  simp only [View.readAt_eq_ld, hf2, hf3, View.ld_unit_zero (S := S1024x2048) zero_off, View.ld_unit_zero (S := S256x2048) zero_off]

set_option maxHeartbeats 1000000 in
/-- The body where only the second conditional is taken: the inputs' buffers are left as found, and the result's
    buffer, holding `y`, ends at `y` plus the product of the activations' block with the second half of the weights. -/
theorem run_odd (c : Dev nD) (i : grid0.Coords)
    (a2 : Memref sig .tc .vmem S1024x2048 .f32) (h2 : a2.IsWhole) (a3 : Memref sig .tc .vmem S256x2048 .f32) (h3 : a3.IsWhole)
    (a4 : Memref sig .tc .vmem S256x2048 .f32) (h4 : a4.IsWhole) (a5 : Memref sig .tc .vmem S1024x256 .f32) (h5 : a5.IsWhole)
    (hc1 : ¬k0_cond1 i = 1#1) (hc2 : k0_cond2 i = 1#1)
    (x : Vec F S1024x2048 .f32) (w0 w1 : Vec F S256x2048 .f32) (y : Vec F S1024x256 .f32) (E : Set ℕ) (K : PUnit → sProp 𝕄) :
    iprop(owns (c : Thread nD τ) a2 fullShare x ∗ owns (c : Thread nD τ) a3 fullShare w0 ∗ owns (c : Thread nD τ) a4 fullShare w1
        ∗ owns (c : Thread nD τ) a5 fullShare y
        ∗ (iprop(owns (c : Thread nD τ) a2 fullShare x ∗ owns (c : Thread nD τ) a3 fullShare w0 ∗ owns (c : Thread nD τ) a4 fullShare w1
            ∗ owns (c : Thread nD τ) a5 fullShare (k0_pay2 y x w1)) -∗ K ⟨⟩))
      ⊢ wp frame (wpE (defs₀ (F := F)) Variants.none c none) E (cc0__matmul_block i a2 h2 a3 h3 a4 h4 a5 h5) K := by
  simp only [cc0__matmul_block_eq_skeleton]; unfold cc0__matmul_block_skel
  unfold owns
  iintro ⟨⟨%f2, %hf2, H2⟩, ⟨%f3, %hf3, H3⟩, ⟨%f4, %hf4, H4⟩, ⟨%f5, %hf5, H5⟩, Hk⟩
  obtain rfl := h2.eq_unread hf2
  obtain rfl := h3.eq_unread hf3
  obtain rfl := h4.eq_unread hf4
  obtain rfl := h5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [View.read_writes_eq_canon _ _ _ (fun y => ⟨_, List.mem_singleton_self _, View.mem_set_unit_zero zero_off inb_S1024x256_S1024x256_0_0 y⟩),
    View.canon_unit_zero zero_off]
  simp only [View.readAt_eq_ld, hf2, hf4, hf5, View.ld_unit_zero (S := S1024x2048) zero_off, View.ld_unit_zero (S := S256x2048) zero_off,
    View.ld_unit_zero (S := S1024x256) zero_off]

/-! ## The body obligation -/

/-- Each window's current staging buffer at point `t`, spelt as the pipeline passes it. -/
abbrev ms_0 (t : Fin cfg0.N) : Memref sig .tc .vmem S1024x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x2048 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S256x2048 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x256 .f32 := win0_3.stage (cfg0.slots t 3)
abbrev hs_3 (t : Fin cfg0.N) : (ms_3 t).IsWhole := hstage0_3 ((cfg0.slots t 3).cast nbuf0_3)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t))

set_option maxHeartbeats 800000 in
/-- The body at any point: the inputs' buffers hold their blocks; by the parity of the point one of the two runs
    applies — at an odd point the result's buffer holds what the even point before left —; nothing else is touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 32 := lt_of_lt_of_eq t.isLt (show cfg0.N = 32 from N_0)
  by_cases h0 : t.val % 2 = 0
  · rw [acc_even m c t h0]
    iintro ⟨HΦ, Ho, ⟨%d0, H0⟩, ⟨%d1, H1⟩, ⟨%d2, H2⟩, ⟨%d3, H3⟩⟩
    iapply (run_even c (grid0.coords t) _ _ _ _ _ _ _ _ ((cond1_iff t).mpr h0) (fun h => by have := (cond2_iff t).mp h; omega)
      (blk m c 0 t) (blk m c 1 t) (blk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc_odd m c t h0]
    simp only [before_3_odd m c t h0]
    iintro ⟨HΦ, Ho, ⟨%d0, H0⟩, ⟨%d1, H1⟩, ⟨%d2, H2⟩, ⟨%d3, H3⟩⟩
    iapply (run_odd c (grid0.coords t) _ _ _ _ _ _ _ _ (fun h => h0 ((cond1_iff t).mp h)) ((cond2_iff t).mpr (by omega))
      (blk m c 0 t) (blk m c 1 t) (blk m c 2 t) _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  have h3 : cfg0.idle (3 : Fin 4) (cfg0.grid.coords t) = false := live_3 _
  rw [h3]
  exact sound_body m c t

end Cert.KernelIdeal.TwoPass

end
-- ==== Proof.IdealRun.lean ====
/-
  The run of the whole program. The region is entered with the three arrays as launched. The weight array is behind
  two windows (its two column halves), so the launch hands each of them one half of the array's share — both only read
  it —, the activations' window the full share of its array and the result's window its array outright. With the body
  obligation this gives: every weakly fair execution terminates, and each window's array ends at what the pipeline's
  write-backs make of it; an input's array is never written, which is the frame.
-/
import proofs.«132035_g2731599200767_cont_9to1_1386_8_alg».proof.Proof.IdealBody
import Idealize.ShloMosaic.Lib.Pipeline.Frame

set_option maxRecDepth 16384

noncomputable section

namespace Cert.KernelIdeal.TwoPass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The pipeline library's algebra is the proof's whole user algebra. -/
abbrev EP : Emb (UR sig nD τ) 𝕄 := emb₁

/-- The launch element of the pipeline's staging cells. -/
def u₀ : UR sig nD τ := initOf (Pipeline.cells cfgs cellOf_inj) (Pipeline.launchToks cfgs cellOf_inj)

/-- A window's array is a whole buffer: all of its elements. -/
theorem arr_all (c : Dev nD) (w : Fin 4) (q : PosShare TreeShare) (f : Buf (Elt F) ((cfg0.win w).arr.view.loc (c.tc : Thread nD τ))) :
    ((cfg0.win w).arr.view.loc (c.tc : Thread nD τ) ↦[(cfg0.win w).arr.view.set]{q} f : sProp 𝕄)
      = ((cfg0.win w).arr.view.loc (c.tc : Thread nD τ) ↦{q} f) := by
  rw [(arr_whole0 w).set_eq_univ]

/-- The shares the windows hold their arrays at, and the arrays' contents at entry. -/
theorem share_0 (c : Dev nD) : (dats m 0 c).share 0 = fullShare := by
  unfold Dat.share; rw [if_neg (by decide)]; dsimp only [dats]
theorem share_1 (c : Dev nD) : (dats m 0 c).share 1 = fullShare.left := by
  unfold Dat.share; rw [if_neg (by decide)]; dsimp only [dats]
theorem share_2 (c : Dev nD) : (dats m 0 c).share 2 = fullShare.right := by
  unfold Dat.share; rw [if_neg (by decide)]; dsimp only [dats]
theorem share_3 (c : Dev nD) : (dats m 0 c).share 3 = fullShare := by
  unfold Dat.share; rw [if_pos (by decide)]
theorem arrAt_zero (c : Dev nD) (w : Fin cfg0.W) : (dats m 0 c).arrAt w 0 = V m c (Pipeline.arrRef spec0 w) := A_eq m c w

/-- The three buffers behind the four windows, each whole at the full share, are the windows' arrays at their shares:
    the weight array's full share is the two halves its two windows hold. -/
theorem arrays_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_arg1, main_v0] (by decide) (by decide), bigSep_W0]
  simp only [arr_all, share_0, share_1, share_2, share_3, arrAt_zero, View.set_whole]
  show (iprop(((c.tc : Thread nD τ).loc main_arg0 ↦{fullShare} V m c main_arg0) ∗ ((c.tc : Thread nD τ).loc main_arg1 ↦{fullShare} V m c main_arg1)
    ∗ ((c.tc : Thread nD τ).loc main_v0 ↦{fullShare} V m c main_v0)) : sProp 𝕄) ⊢ _
  iintro ⟨H0, H1, H3⟩
  ihave H12 := (pointsTo_share (PosShare.mem_left_op_right fullShare)).1 $$ H1
  icases H12 with ⟨H1, H2⟩
  isplitl [H0]; · iexact H0
  isplitl [H1]; · iexact H1
  isplitl [H2]; · iexact H2
  iexact H3

/-- Every weakly fair execution of @main terminates, and every window's array ends at what the write-backs make of it. -/
theorem run_main : θ_run defs (onTc (τ := τ) (main (F := F))) ⟨m, fun _ => 0, ρ⟩ (fun r => ∀ (c : Dev nD) (w : Fin cfg0.W),
    r.2.mem ((cfg0.win w).arr.view.loc (c.tc : Thread nD τ)) = (dats m 0 c).arrAt w cfg0.N) :=
  Pipeline.θ_run_region_noSem_shared cfgs (dats m) () cellOf_inj (0 : Fin 1) winFacts₀0 EP defs₀ Variants.none m ρ main
    (hbody := fun c => (body_obligation m c).loose) (hne := block_pos0) (harr := arr_whole0) (hstage := stage_whole0)
    (howed := fun _ _ => rfl) (u₀ := u₀) (hu₀ := BI.Entails.refl _)
    (V := V m) (hmain := hmain m Variants.none) (hsplit := arrays_split m)
    (X := fun _ => iprop(emp)) (Y := fun _ => iprop(emp)) (Z := fun _ => iprop(emp))
    (hX := fun c => by rw [unscopedRest0_eq]; iintro -; isplitr <;> iempintro)
    (hin := fun c => by
      rw [scopedRest0_eq, show (dats m 0 c).Φ 0 = (BI.emp : sProp 𝕄) from rfl]
      iintro -; iempintro)
    (hout := fun c => by
      rw [scopedRest0_eq, show (dats m 0 c).Φ (Fin.last cfg0.N) = (BI.emp : sProp 𝕄) from rfl]
      iintro -; isplitr <;> iempintro)
    (QY := fun _ _ => True)
    (hY := fun c s' => by
      iintro ⟨-, -, HSI⟩; imodintro
      isplitr; · ipureintro; trivial
      iexact HSI)
    (hQ := fun _ h c w => (h c).1 w)

/-- THE FRAME: the two argument arrays end as launched — they are behind input windows only, and an input's array is
    never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans ((dats m 0 c).arrAt_in 0 rfl _), (h c 1).trans ((dats m 0 c).arrAt_in 1 rfl _)⟩)
    (run_main m ρ)

end Cert.KernelIdeal.TwoPass

end
-- ==== Proof.Spec.lean ====
/-
  The specification. With x the activations (16384 rows, 4096 columns) and w the weights (256 rows, 4096 columns),
  entry (r, n) of the result is the sum over the 4096 columns k of x[r, k] · w[n, k]. The kernel reaches it in two passes
  over the two halves of the columns; the only law needed is that a sum over 4096 indices is the sum over the first
  2048 plus the sum over the last 2048 — commutativity and associativity of addition on the extended reals, which hold
  at the infinities too, so no finiteness of the inputs is used.
-/
import Idealize.ShloMosaic.PureOps.Ideal
import Idealize.ShloMosaic.Lib.ValueIdx

noncomputable section

namespace Cert.Logits

open Idealize.ShloMosaic

/-- The activations', the weights' and the result's shapes. -/
abbrev SX : Shape := ⟨2, ![16384, 4096]⟩
abbrev SW : Shape := ⟨2, ![256, 4096]⟩
abbrev SO : Shape := ⟨2, ![16384, 256]⟩

/-- The activations' entry in the result index's row, at column `k`. -/
def xAt (i : SO.Idx) (k : Fin 4096) : SX.Idx := fun a => match a with
  | ⟨0, _⟩ => ⟨(i 0).val, (i 0).isLt⟩
  | ⟨1, _⟩ => ⟨k.val, k.isLt⟩

/-- The weights' entry in the row the result index's column names, at column `k`. -/
def wAt (i : SO.Idx) (k : Fin 4096) : SW.Idx := fun a => match a with
  | ⟨0, _⟩ => ⟨(i 1).val, (i 1).isLt⟩
  | ⟨1, _⟩ => ⟨k.val, k.isLt⟩

/-- The result: entry (r, n) is the sum over the columns k of x[r, k] · w[n, k]. -/
def logits (x : SX.Idx → EReal) (w : SW.Idx → EReal) : SO.Idx → EReal :=
  fun i => ∑ k : Fin 4096, x (xAt i k) * w (wAt i k)

/-- A sum over 4096 indices is the sum over the first 2048 plus the sum over the last 2048. -/
theorem sum_halves (f : Fin 4096 → EReal) :
    (∑ k : Fin 2048, f ⟨k.val, by omega⟩) + (∑ k : Fin 2048, f ⟨2048 + k.val, by omega⟩) = ∑ k : Fin 4096, f k :=
  (Fin.sum_univ_add (a := 2048) (b := 2048) f).symm

/-- So the specification's entry is the first half's sum plus the second half's. -/
theorem logits_halves (x : SX.Idx → EReal) (w : SW.Idx → EReal) (i : SO.Idx) :
    (∑ k : Fin 2048, x (xAt i ⟨k.val, by omega⟩) * w (wAt i ⟨k.val, by omega⟩))
      + (∑ k : Fin 2048, x (xAt i ⟨2048 + k.val, by omega⟩) * w (wAt i ⟨2048 + k.val, by omega⟩)) = logits x w i :=
  sum_halves fun k => x (xAt i k) * w (wAt i k)

end Cert.Logits

end
-- ==== Proof.IdealValue.lean ====
/-
  What the idealized kernel's result array holds. At the extended reals one pass of the body, read at entry (p, q) of
  the block, is the sum over the 2048 columns k of the half of x[p, k] · w[q, k]. The block written back after the odd
  point of row tile T is the first pass plus the second, so its entry (p, q) is the sum over the first 2048 columns
  plus the sum over the last 2048 of x[1024·T + p, k] · w[q, k]: entry (1024·T + p, q) of the specification. The sixteen
  blocks written back tile the result's rows, so the array ends at the specification.
-/
import proofs.«132035_g2731599200767_cont_9to1_1386_8_alg».proof.Proof.IdealRun
import proofs.«132035_g2731599200767_cont_9to1_1386_8_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.TwoPass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Logits

/-! ## The windows' block indices over the grid -/

/-- Point `t` is row tile `t / 2`, column half `t % 2`: the activations' block index is (tile, half), the two weight
    windows sit at the first and the second half, the result's block index is (tile, 0). -/
theorem index_facts : ∀ t : Fin cfg0.N,
    win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = 0 ∧ win0_2.index t (1 : Fin 2) = 1
    ∧ win0_3.index t (0 : Fin 2) = t.val / 2 ∧ win0_3.index t (1 : Fin 2) = 0 :=
  (by decide +kernel : ∀ t : Fin grid0.N,
    win0_0.index t (0 : Fin 2) = t.val / 2 ∧ win0_0.index t (1 : Fin 2) = t.val % 2
    ∧ win0_1.index t (0 : Fin 2) = 0 ∧ win0_1.index t (1 : Fin 2) = 0
    ∧ win0_2.index t (0 : Fin 2) = 0 ∧ win0_2.index t (1 : Fin 2) = 1
    ∧ win0_3.index t (0 : Fin 2) = t.val / 2 ∧ win0_3.index t (1 : Fin 2) = 0)

/-! ## A block read at an index is the array read at block index × block size + the index inside the block -/

section Blocks
variable (m : (ℓ : Loc nD τ sig) → Buf (Elt F) ℓ)

theorem blk0_apply (c : Dev nD) (t : Fin cfg0.N) (j : S1024x2048.Idx) (i : S16384x4096.Idx)
    (h0 : (i 0).val = win0_0.index t (0 : Fin 2) * 1024 + (j 0).val) (h1 : (i 1).val = win0_0.index t (1 : Fin 2) * 2048 + (j 1).val) :
    (blk m c 0 t : Vec F S1024x2048 .f32) j = m ((c.tc : Thread nD τ).loc main_arg0) i := by
  unfold blk
  rw [View.read_apply]
  show V m c main_arg0 _ = V m c main_arg0 i
  congr 1
  funext a
  apply Fin.ext
  match a with
  | ⟨0, _⟩ => show win0_0.index t 0 * 1024 + 1 * (j 0).val = (i 0).val; omega
  | ⟨1, _⟩ => show win0_0.index t 1 * 2048 + 1 * (j 1).val = (i 1).val; omega

theorem blk1_apply (c : Dev nD) (t : Fin cfg0.N) (j : S256x2048.Idx) (i : S256x4096.Idx)
    (h0 : (i 0).val = win0_1.index t (0 : Fin 2) * 256 + (j 0).val) (h1 : (i 1).val = win0_1.index t (1 : Fin 2) * 2048 + (j 1).val) :
    (blk m c 1 t : Vec F S256x2048 .f32) j = m ((c.tc : Thread nD τ).loc main_arg1) i := by
  unfold blk
  rw [View.read_apply]
  show V m c main_arg1 _ = V m c main_arg1 i
  congr 1
  funext a
  apply Fin.ext
  match a with
  | ⟨0, _⟩ => show win0_1.index t 0 * 256 + 1 * (j 0).val = (i 0).val; omega
  | ⟨1, _⟩ => show win0_1.index t 1 * 2048 + 1 * (j 1).val = (i 1).val; omega

theorem blk2_apply (c : Dev nD) (t : Fin cfg0.N) (j : S256x2048.Idx) (i : S256x4096.Idx)
    (h0 : (i 0).val = win0_2.index t (0 : Fin 2) * 256 + (j 0).val) (h1 : (i 1).val = win0_2.index t (1 : Fin 2) * 2048 + (j 1).val) :
    (blk m c 2 t : Vec F S256x2048 .f32) j = m ((c.tc : Thread nD τ).loc main_arg1) i := by
  unfold blk
  rw [View.read_apply]
  show V m c main_arg1 _ = V m c main_arg1 i
  congr 1
  funext a
  apply Fin.ext
  match a with
  | ⟨0, _⟩ => show win0_2.index t 0 * 256 + 1 * (j 0).val = (i 0).val; omega
  | ⟨1, _⟩ => show win0_2.index t 1 * 2048 + 1 * (j 1).val = (i 1).val; omega

end Blocks

/-! ## One pass at an index -/

/-- The product's dimension record: both operands contracted along their columns. -/
abbrev D : DotDims S1024x2048 S256x2048 S1024x256 := dot_S1024x2048_S256x2048_S1024x256_1_1_0_0_n_n

/-- The activations' block entry in the block index's row, at column `k` of the half; -/
def aAt (y : S1024x256.Idx) (k : Fin 2048) : S1024x2048.Idx := fun a => match a with
  | ⟨0, _⟩ => ⟨(y 0).val, (y 0).isLt⟩
  | ⟨1, _⟩ => ⟨k.val, k.isLt⟩
/-- the weights' block entry in the row the block index's column names, at column `k` of the half. -/
def bAt (y : S1024x256.Idx) (k : Fin 2048) : S256x2048.Idx := fun a => match a with
  | ⟨0, _⟩ => ⟨(y 1).val, (y 1).isLt⟩
  | ⟨1, _⟩ => ⟨k.val, k.isLt⟩

theorem lhs_0 (y : S1024x256.Idx) (q : D.contr.Idx) : (D.lhsIdx y q 0).val = (y 0).val := by
  unfold DotDims.lhsIdx
  rw [dif_neg (show ¬(0 : Fin S1024x2048.rank) ∈ D.lhsBatch by decide), dif_pos (show (0 : Fin S1024x2048.rank) ∈ D.lhsNonContracting by decide)]
  rfl
theorem lhs_1 (y : S1024x256.Idx) (q : D.contr.Idx) : (D.lhsIdx y q 1).val = (q ⟨0, by decide⟩).val :=
  D.lhsIdx_val_of_single rfl y q
theorem rhs_0 (y : S1024x256.Idx) (q : D.contr.Idx) : (D.rhsIdx y q 0).val = (y 1).val := by
  unfold DotDims.rhsIdx
  rw [dif_neg (show ¬(0 : Fin S256x2048.rank) ∈ D.rhsBatch by decide), dif_pos (show (0 : Fin S256x2048.rank) ∈ D.rhsNonContracting by decide)]
  rfl
theorem rhs_1 (y : S1024x256.Idx) (q : D.contr.Idx) : (D.rhsIdx y q 1).val = (q ⟨0, by decide⟩).val :=
  D.rhsIdx_val_of_single rfl y q

/-- One pass into the zero accumulator, at entry `y` of the block: the sum over the half's columns of the products. -/
theorem pass_apply (x : FVec Ideal S1024x2048 .f32) (w : FVec Ideal S256x2048 .f32) (y : S1024x256.Idx) :
    FloatOps.matmul D none x w (constant (F := Ideal) S1024x256 .f32 0x00000000#32) y = ∑ k : Fin 2048, x (aAt y k) * w (bAt y k) := by
  rw [Ideal.matmul_constant_zero_apply, ← Equiv.sum_comp (ValueIdx.contrEquiv1 D 2048 rfl rfl).symm]
  refine Finset.sum_congr rfl fun k _ => ?_
  have hk := ValueIdx.contrEquiv1_symm_val D 2048 rfl rfl k
  have el : D.lhsIdx y ((ValueIdx.contrEquiv1 D 2048 rfl rfl).symm k) = aAt y k := funext fun a => Fin.ext (by
    match a with
    | ⟨0, _⟩ => exact lhs_0 _ _
    | ⟨1, _⟩ => exact (lhs_1 _ _).trans hk)
  have er : D.rhsIdx y ((ValueIdx.contrEquiv1 D 2048 rfl rfl).symm k) = bAt y k := funext fun a => Fin.ext (by
    match a with
    | ⟨0, _⟩ => exact rhs_0 _ _
    | ⟨1, _⟩ => exact (rhs_1 _ _).trans hk)
  rw [el, er]

/-- The even point's store, at an index. -/
theorem first_apply (x : Vec Ideal S1024x2048 .f32) (w : Vec Ideal S256x2048 .f32) (y : S1024x256.Idx) :
    k0_pay1 (F := Ideal) x w y = ∑ k : Fin 2048, x (aAt y k) * w (bAt y k) := by
  unfold k0_pay1
  exact pass_apply x w y

/-- The odd point's store, at an index: what the block held plus the second pass. -/
theorem second_apply (a : Vec Ideal S1024x256 .f32) (x : Vec Ideal S1024x2048 .f32) (w : Vec Ideal S256x2048 .f32) (y : S1024x256.Idx) :
    k0_pay2 (F := Ideal) a x w y = a y + ∑ k : Fin 2048, x (aAt y k) * w (bAt y k) := by
  unfold k0_pay2
  exact congrArg₂ (· + ·) (congrFun (shapeCast_self a shapeCasts_S1024x256_S1024x256) y) (pass_apply x w y)

/-! ## The result array -/

variable (m : (ℓ : Loc nD τ sig) → Buf (Elt Ideal) ℓ)

/-- The specification of the launch contents of the two argument arrays, as contents of the result array. -/
abbrev result (c : Dev nD) : Buf (Elt Ideal) ((c.tc : Thread nD τ).loc main_v0) :=
  logits (m ((c.tc : Thread nD τ).loc main_arg0)) (m ((c.tc : Thread nD τ).loc main_arg1))

/-- What an odd point writes back is its block of the specification. -/
theorem flushed_eq (c : Dev nD) (t : Fin cfg0.N) (hf : (cfg0.win 3).flush t = true) :
    (dats m 0 c).flushed 3 t = ((cfg0.win 3).blk t).view.read (Elt Ideal) (result m c) := by
  have hodd : t.val % 2 = 1 := (flush0_3 t).mp hf
  have hN : t.val < 32 := lt_of_lt_of_eq t.isLt (show cfg0.N = 32 from N_0)
  have ht' : t.val - 1 < cfg0.N := Nat.lt_of_le_of_lt (Nat.sub_le _ _) t.isLt
  obtain ⟨i00, i01, -, -, -, -, -, -⟩ := index_facts ⟨t.val - 1, ht'⟩
  obtain ⟨-, -, i10, i11, -, -, -, -⟩ := index_facts ⟨t.val - 1, ht'⟩
  obtain ⟨j00, j01, -, -, j20, j21, j30, j31⟩ := index_facts t
  dsimp only at i00 i01 i10 i11
  show (cfg0.win 3).cut (grid0.coords t) ((dats m 0 c).after 3 t) = _
  rw [after_3, acc_odd m c t (by omega), acc_even m c ⟨t.val - 1, ht'⟩ (by dsimp only; omega)]
  funext y
  refine (second_apply _ _ _ y).trans ?_
  rw [first_apply]
  rw [View.read_apply]
  show _ = result m c (((cfg0.win 3).blk t).view.emb y)
  have e0 : ((((cfg0.win 3).blk t).view.emb y) 0).val = win0_3.index t (0 : Fin 2) * 1024 + 1 * (y 0).val := rfl
  have e1 : ((((cfg0.win 3).blk t).view.emb y) 1).val = win0_3.index t (1 : Fin 2) * 256 + 1 * (y 1).val := rfl
  generalize ((cfg0.win 3).blk t).view.emb y = I at e0 e1
  refine Eq.trans ?_ (logits_halves (m ((c.tc : Thread nD τ).loc main_arg0)) (m ((c.tc : Thread nD τ).loc main_arg1)) I)
  refine congrArg₂ (· + ·) (Finset.sum_congr rfl fun k _ => ?_) (Finset.sum_congr rfl fun k _ => ?_)
  · exact congrArg₂ (· * ·)
      (blk0_apply m c ⟨t.val - 1, ht'⟩ (aAt y k) (xAt I ⟨k.val, by omega⟩)
        (by show (I 0).val = _ + (y 0).val; rw [e0, j30, i00]; omega) (by show k.val = _ + k.val; rw [i01]; omega))
      (blk1_apply m c ⟨t.val - 1, ht'⟩ (bAt y k) (wAt I ⟨k.val, by omega⟩)
        (by show (I 1).val = _ + (y 1).val; rw [e1, j31, i10]; omega) (by show k.val = _ + k.val; rw [i11]; omega))
  · exact congrArg₂ (· * ·)
      (blk0_apply m c t (aAt y k) (xAt I ⟨2048 + k.val, by omega⟩)
        (by show (I 0).val = _ + (y 0).val; rw [e0, j30, j00]; omega) (by show 2048 + k.val = _ + k.val; rw [j01]; omega))
      (blk2_apply m c t (bAt y k) (wAt I ⟨2048 + k.val, by omega⟩)
        (by show (I 1).val = _ + (y 1).val; rw [e1, j31, j20]; omega) (by show 2048 + k.val = _ + k.val; omega))

/-- An index of the result array is in point `t`'s block iff each coordinate is in the block's range on its axis. -/
theorem mem_blk3 (t : Fin cfg0.N) (i : S16384x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0).slice (win0_3.rect t)).set ↔ _
  rw [View.set_slice_whole, Rect.mem_set_unit]
  exact Iff.rfl

/-- Row r of the result lies in the block written back after the odd point of row tile r / 1024. -/
theorem cover (i : S16384x256.Idx) : ∃ t : Fin cfg0.N, (cfg0.win 3).flush t = true ∧ i ∈ ((cfg0.win 3).blk t).view.set := by
  have hi0 : (i 0).val < 16384 := (i 0).isLt
  have hi1 : (i 1).val < 256 := (i 1).isLt
  have hN : cfg0.N = 32 := N_0
  have ht : 2 * ((i 0).val / 1024) + 1 < cfg0.N := by rw [hN]; omega
  refine ⟨⟨2 * ((i 0).val / 1024) + 1, ht⟩, (flush0_3 _).mpr (by dsimp only; omega), ?_⟩
  rw [mem_blk3]
  obtain ⟨-, -, -, -, -, -, j30, j31⟩ := index_facts ⟨2 * ((i 0).val / 1024) + 1, ht⟩
  dsimp only at j30
  intro a
  match a with
  | ⟨0, _⟩ =>
    show win0_3.index ⟨2 * ((i 0).val / 1024) + 1, ht⟩ (0 : Fin 2) * 1024 ≤ (i 0).val
      ∧ (i 0).val < win0_3.index ⟨2 * ((i 0).val / 1024) + 1, ht⟩ (0 : Fin 2) * 1024 + 1024
    rw [j30]; omega
  | ⟨1, _⟩ =>
    show win0_3.index ⟨2 * ((i 0).val / 1024) + 1, ht⟩ (1 : Fin 2) * 256 ≤ (i 1).val
      ∧ (i 1).val < win0_3.index ⟨2 * ((i 0).val / 1024) + 1, ht⟩ (1 : Fin 2) * 256 + 256
    rw [j31]; omega

/-- The result array ends at the specification. -/
theorem final (c : Dev nD) : (dats m 0 c).arrAt 3 cfg0.N = result m c :=
  (dats m 0 c).arrAt_eq_of_cover 3 (result m c) (flushed_eq m c) cover

variable (ρ : Dev nD → PrngReg)

/-- The run, read: the result array at the specification, the argument arrays unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c 3).trans (final m c), (h c 0).trans ((dats m 0 c).arrAt_in 0 rfl _),
      (h c 1).trans ((dats m 0 c).arrAt_in 1 rfl _)⟩)
    (run_main m ρ)

end Cert.KernelIdeal.TwoPass

end
-- ==== Proof.RefValue.lean ====
/-
  The reference is the specification. It transposes the weights and contracts the activations' columns with the
  transposed weights' rows: entry (r, n) is the sum over k of x[r, k] · wᵀ[k, n], and wᵀ[k, n] is w[n, k].
-/
import proofs.«132035_g2731599200767_cont_9to1_1386_8_alg».proof.Proof.Gen.ReferenceIdeal.Read
import proofs.«132035_g2731599200767_cont_9to1_1386_8_alg».proof.Proof.Spec

noncomputable section

namespace Cert.ReferenceIdeal.RefValue

open Cert.ReferenceIdeal Cert.ReferenceIdeal.Read Cert.Logits
open Idealize.ShloMosaic

/-- The reference's result, as the generated stage states it, is the specification of its two arguments. -/
theorem ref_eq (x : (⟨S16384x4096, .f32⟩ : BufTy).Contents (Elt Ideal)) (w : (⟨S256x4096, .f32⟩ : BufTy).Contents (Elt Ideal)) :
    val_main_v1 (F := Ideal) x w = logits x w := by
  funext i
  rw [val_main_v1_apply]
  unfold logits
  refine Finset.sum_congr rfl fun k _ => ?_
  rw [val_main_v0_apply]
  have e1 : lidx_main_v1 i k = xAt i k := funext fun a => Fin.ext (by
    match a with
    | ⟨0, _⟩ => rfl
    | ⟨1, _⟩ => rfl)
  have e2 : idx_main_v0 (ridx_main_v1 i k) = wAt i k := funext fun a => Fin.ext (by
    match a with
    | ⟨0, _⟩ => rfl
    | ⟨1, _⟩ => rfl)
  rw [e1, e2]

end Cert.ReferenceIdeal.RefValue

end
-- ==== Proof.lean ====
/-
  The kernel computes the router logits x · wᵀ of 16384 × 4096 activations and 256 × 4096 weights in two passes over
  the two halves of the 4096 columns: for each tile of 1024 rows it stores the product with the first half of the
  weights' columns, then adds the product with the second half, and writes the tile back. The reference is one
  contraction over all 4096 columns. Over the extended reals both are, entry by entry, the sum over k of
  x[r, k] · w[n, k]: a sum over 4096 indices is the sum over its first half plus the sum over its second, by
  commutativity and associativity of addition alone, so the inputs' finiteness is never used.
  The frames: the two argument arrays sit behind input windows only (the weights behind two, each holding half of the
  array's share), and an input window's array is never written back. The ideal pass rewrote nothing.
-/
import proofs.«132035_g2731599200767_cont_9to1_1386_8_alg».proof.Defs
import proofs.«132035_g2731599200767_cont_9to1_1386_8_alg».proof.Proof.Gen.Kernel
import proofs.«132035_g2731599200767_cont_9to1_1386_8_alg».proof.Proof.Gen.KernelIdeal
import proofs.«132035_g2731599200767_cont_9to1_1386_8_alg».proof.Proof.Gen.ReferenceIdeal
import proofs.«132035_g2731599200767_cont_9to1_1386_8_alg».proof.Proof.Gen.Pre_finite_inputs
import proofs.«132035_g2731599200767_cont_9to1_1386_8_alg».proof.Proof.Gen.ReferenceIdeal.Read
import proofs.«132035_g2731599200767_cont_9to1_1386_8_alg».proof.Proof.BitsRun
import proofs.«132035_g2731599200767_cont_9to1_1386_8_alg».proof.Proof.IdealValue
import proofs.«132035_g2731599200767_cont_9to1_1386_8_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_p : Cert.frame_Kernel := fun m ρ _ => Cert.Kernel.TwoPass.frame m ρ

/-- So does its idealization. -/
theorem frame_pi : Cert.frame_KernelIdeal := fun m ρ _ => Cert.KernelIdeal.TwoPass.frame m ρ

/-- The reference is two host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result at the specification of the (agreeing) arguments. -/
theorem algebraic : Cert.algebraic_KernelIdeal_ReferenceIdeal := by
  intro m ρ m' ρ' _ hagree
  refine ⟨fun c => Cert.KernelIdeal.TwoPass.result m c, Cert.KernelIdeal.TwoPass.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
